-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x800000 : Shape := ⟨2, ![2, 800000]⟩
abbrev S2x1000 : Shape := ⟨2, ![2, 1000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x40 .f32) (main_arg4 : FVec F S40 .f32) (main_arg5 : IVec S2x800000 32) (main_arg6 : IVec S2x1000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x800000 : Shape := ⟨2, ![2, 800000]⟩
abbrev S2x1000 : Shape := ⟨2, ![2, 1000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 106
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S2x800000, .i32⟩
  | .hbm, ⟨6, _⟩ => ⟨S2x1000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x40, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x40, .f32⟩
  | .hbm, ⟨78, _⟩ => ⟨S800000x1, .f32⟩
  | .hbm, ⟨79, _⟩ => ⟨S800000x40, .f32⟩
  | .hbm, ⟨80, _⟩ => ⟨S800000x40, .f32⟩
  | .hbm, ⟨81, _⟩ => ⟨S_, .f32⟩
  | .hbm, ⟨82, _⟩ => ⟨S50000x40, .f32⟩
  | .hbm, ⟨83, _⟩ => ⟨S800000x1, .i32⟩
  | .hbm, ⟨84, _⟩ => ⟨S50000x40, .f32⟩
  | .hbm, ⟨85, _⟩ => ⟨S50000x40, .f32⟩
  | .hbm, ⟨86, _⟩ => ⟨S50000x40, .f32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x40, .f32⟩
  | .hbm, ⟨105, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v69 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x800000 : Shape := ⟨2, ![2, 800000]⟩
abbrev S2x1000 : Shape := ⟨2, ![2, 1000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x40, .f32⟩
  | 4 => ⟨S40, .f32⟩
  | 5 => ⟨S2x800000, .i32⟩
  | 6 => ⟨S2x1000, .i32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x40, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x40, .f32⟩
  | 107 => ⟨S800000x1, .f32⟩
  | 108 => ⟨S800000x40, .f32⟩
  | 109 => ⟨S800000x40, .f32⟩
  | 110 => ⟨S_, .f32⟩
  | 111 => ⟨S50000x40, .f32⟩
  | 112 => ⟨S800000x1, .i32⟩
  | 113 => ⟨S50000x40, .f32⟩
  | 114 => ⟨S50000, .f32⟩
  | 115 => ⟨S50000x1, .f32⟩
  | 116 => ⟨S50000x40, .f32⟩
  | 117 => ⟨S50000x40, .f32⟩
  | 118 => ⟨S50000x40, .f32⟩
  | 119 => ⟨S1x40, .f32⟩
  | 120 => ⟨S50000x40, .f32⟩
  | 121 => ⟨S50000x40, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x40, .f32⟩
  | 1 => ⟨S50000x40, .f32⟩
  | 2 => ⟨S50000x40, .f32⟩
  | 3 => ⟨S_, .f32⟩
  | 4 => ⟨S50000, .f32⟩
  | 5 => ⟨S50000x1, .f32⟩
  | 6 => ⟨S50000x1, .f32⟩
  | 7 => ⟨S50000x40, .f32⟩
  | 8 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_call1_cst_0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_cst_1 : Ref sig .tc := ⟨.hbm, 131, rfl⟩
abbrev main_call1_v7 : Ref sig .tc := ⟨.hbm, 132, rfl⟩
abbrev main_call1_v8 : Ref sig .tc := ⟨.hbm, 133, rfl⟩
abbrev main_call1_v9 : Ref sig .tc := ⟨.hbm, 134, rfl⟩
abbrev main_call1_v10 : Ref sig .tc := ⟨.hbm, 135, rfl⟩
abbrev main_v93 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The kernel program's run with its result named.

  @main is seven segments: a stretch of host operations, the first kernel's region, two stretches, the second
  kernel's region, two stretches. The library's theorem for such a program gives: every weakly fair execution
  terminates, nothing faults, and at the end every buffer that outlives the kernels holds the last boundary's
  contents `W7` — the fold of the segments over the launch memory. Read at the result buffer that is `W7` there; read
  at an argument it is the launch contents, since nothing writes an argument.
-/
import proofs.«136286_j12352325943364_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with its result buffer at the last
    boundary's contents and its arguments as launched. -/
theorem run : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.Gcn.KernelRun

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.BlockProduct.lean ====
/-
  What one grid point's body stores, read at an entry, at the ideal values.

  Each of the two kernels loads a 2000-row block of its left operand and the whole right operand, rounds both to
  bf16 (the identity at the ideal values) and multiplies them on the matrix unit into a zero accumulator. So the
  stored 2000×n block holds, at row p and lane j, the sum over c < 128 of left(p, c) · right(c, j).
-/
import proofs.«136286_j12352325943364_1_alg».proof.Proof.Gen.KernelIdeal.Skeleton
import proofs.«136286_j12352325943364_1_alg».proof.Proof.LibPlainDot
import Idealize.ShloMosaic.Lib.Pipeline.Value

noncomputable section

open scoped BigOperators

namespace Cert.Gcn.Block

open Cert.KernelIdeal Cert.KernelIdeal.Gen Idealize.ShloMosaic Idealize.ShloMosaic.ValueIdx

/-- The first kernel's stored block at (p, j): row p of the loaded block against column j of the weights. -/
theorem pay0_apply (x0 : Vec Ideal S2000x128 .f32) (x1 : Vec Ideal S128x128 .f32) (p : Fin 2000) (j : Fin 128) :
    k0_pay1 (F := Ideal) x0 x1 (ix2 p j) = ∑ c : Fin 128, x0 (ix2 p c) * x1 (ix2 c j) := by
  unfold k0_pay1
  exact Cert.PlainDot.matmul_zero_apply dot_S2000x128_S128x128_S2000x128_1_0_0_1_n_n rfl none _ _ p j

/-- The second kernel's stored block at (p, j); its left block passes through a cast to its own shape first. -/
theorem pay1_apply (x0 : Vec Ideal S2000x128 .f32) (x1 : Vec Ideal S128x40 .f32) (p : Fin 2000) (j : Fin 40) :
    k1_pay1 (F := Ideal) x0 x1 (ix2 p j) = ∑ c : Fin 128, x0 (ix2 p c) * x1 (ix2 c j) := by
  unfold k1_pay1
  rw [shapeCast_self]
  exact Cert.PlainDot.matmul_zero_apply dot_S2000x128_S128x40_S2000x40_1_0_0_1_n_n rfl none _ _ p j

end Cert.Gcn.Block

end
-- ==== Proof.Network.lean ====
/-
  The graph-convolution network both programs compute, written once as a composition of named stages over the
  argument arrays, at any float instance.

  Nodes 0 … 49999 carry feature rows; `edge_index` lists 800000 directed edges (row 0 the sources, row 1 the
  targets). With deg(v) = 1 + #{e : dst e = v} and dinv = deg^(-1/2), one layer sends a feature matrix h to
      agg(h)(v, ·) = Σ_{e : dst e = v} h(src e, ·) · dinv(src e) · dinv(dst e)  +  h(v, ·) · dinv(v)²  +  b,
  the first layer is followed by max(·, 0), the second by a row-wise log-softmax, and each layer is applied to the
  product of its input with a weight matrix. Every stage below is the host operation that computes it, so that the
  kernel's program (whose two products are tiled matrix-unit calls) and the reference (whose products are
  `dot_general`s, and which recomputes dinv and the edge weights for the second layer) are both instances of
  `network` once their products are identified with `product128` / `product40`.
-/
import proofs.«136286_j12352325943364_1_alg».proof.Proof.Gen.KernelIdeal

noncomputable section

namespace Cert.Gcn

open Cert.KernelIdeal Cert.KernelIdeal.Facts₀ Idealize.ShloMosaic

variable {F : FTy → Type} [FloatOps F]

/-- The contents of a buffer of shape `S` and element type `e`. -/
abbrev Arr (F : FTy → Type) [FloatOps F] (S : Shape) (e : EltTy) : Type := (⟨S, e⟩ : BufTy).Contents (Elt F)

/-- Row 0 of `edge_index`: the edges' source nodes. -/
def srcOf (ei : Arr F S2x800000 .i32) : Arr F S800000 .i32 :=
  shapeCast _ (extractStridedSlice S1x800000 ![0, 0] ei slices_S2x800000_S1x800000_0_0) shapeCasts_S1x800000_S800000

/-- Row 1 of `edge_index`: the edges' target nodes. -/
def dstOf (ei : Arr F S2x800000 .i32) : Arr F S800000 .i32 :=
  shapeCast _ (extractStridedSlice S1x800000 ![1, 0] ei slices_S2x800000_S1x800000_1_0) shapeCasts_S1x800000_S800000

/-- A node number used as a gather index: a negative one counts from the end (s + 50000), kept as a column. -/
def wrapIdx (s : Arr F S800000 .i32) : Arr F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- dinv = (1 + in-degree)^(-1/2): ones scattered onto the targets, plus one, inverse square root. -/
def dinvOf (dst : Arr F S800000 .i32) : Arr F S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- The edge weights dinv(src e) · dinv(dst e). -/
def normOf (dinv : Arr F S50000 .f32) (src dst : Arr F S800000 .i32) : Arr F S800000 .f32 :=
  mulf (Host.gather gather_S50000_S800000x1_S800000_n_0_n_n_0_1_1 dinv (wrapIdx src))
    (Host.gather gather_S50000_S800000x1_S800000_n_0_n_n_0_1_1 dinv (wrapIdx dst))

/-- The self-loop weights dinv(v)², as a column. -/
def selfOf (dinv : Arr F S50000 .f32) : Arr F S50000x1 .f32 :=
  broadcastInDim S50000x1 ![0] bcast_S50000_S50000x1_0 (mulf dinv dinv)

/-- One layer's aggregation on 128 lanes: weighted neighbour rows summed onto their targets, the self-loop term, the bias. -/
def layer128 (h : Arr F S50000x128 .f32) (src dst : Arr F S800000 .i32) (norm : Arr F S800000 .f32)
    (self : Arr F S50000x1 .f32) (b : Arr F S128 .f32) : Arr F S50000x128 .f32 :=
  addf (addf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf (Host.gather gather_S50000x128_S800000x1_S800000x128_1_0_n_n_0_1_1128 h (wrapIdx src))
        (broadcastInDim S800000x128 ![0, 1] bcast_S800000x1_S800000x128_0_1
          (broadcastInDim S800000x1 ![0] bcast_S800000_S800000x1_0 norm))))
    (mulf h (broadcastInDim S50000x128 ![0, 1] bcast_S50000x1_S50000x128_0_1 self)))
    (broadcastInDim S50000x128 ![0, 1] bcast_S1x128_S50000x128_0_1 (broadcastInDim S1x128 ![1] bcast_S128_S1x128_1 b))

/-- max(·, 0) on the hidden features. -/
def relu128 (x : Arr F S50000x128 .f32) : Arr F S50000x128 .f32 :=
  maximumf x (broadcastInDim S50000x128 ![] bcast_S_S50000x128 (constant S_ .f32 0x00000000#32))

/-- The same aggregation on 40 lanes. -/
def layer40 (h : Arr F S50000x40 .f32) (src dst : Arr F S800000 .i32) (norm : Arr F S800000 .f32)
    (self : Arr F S50000x1 .f32) (b : Arr F S40 .f32) : Arr F S50000x40 .f32 :=
  addf (addf
    (Host.scatterAdd scatter_S50000x40_S800000x1_S800000x40_1_0_0_1
      (broadcastInDim S50000x40 ![] bcast_S_S50000x40 (constant S_ .f32 0x00000000#32))
      (broadcastInDim S800000x1 ![0] bcast_S800000_S800000x1_0 dst)
      (mulf (Host.gather gather_S50000x40_S800000x1_S800000x40_1_0_n_n_0_1_140 h (wrapIdx src))
        (broadcastInDim S800000x40 ![0, 1] bcast_S800000x1_S800000x40_0_1
          (broadcastInDim S800000x1 ![0] bcast_S800000_S800000x1_0 norm))))
    (mulf h (broadcastInDim S50000x40 ![0, 1] bcast_S50000x1_S50000x40_0_1 self)))
    (broadcastInDim S50000x40 ![0, 1] bcast_S1x40_S50000x40_0_1 (broadcastInDim S1x40 ![1] bcast_S40_S1x40_1 b))

/-- Each row's maximum (a fold of max from -inf). -/
def rowMax (x : Arr F S50000x40 .f32) : Arr F S50000 .f32 :=
  Host.reduce FloatOps.maximumf x (constant S_ .f32 0xFF800000#32) reducesTo_S50000x40_S50000_d1 h_S_

/-- A row minus a per-row value `mx` (taken against -inf first, as the host spells it). -/
def shiftBy (x : Arr F S50000x40 .f32) (mx : Arr F S50000 .f32) : Arr F S50000x40 .f32 :=
  subf x (broadcastInDim S50000x40 ![0, 1] bcast_S50000x1_S50000x40_0_1
    (broadcastInDim S50000x1 ![0] bcast_S50000_S50000x1_0
      (maximumf (broadcastInDim S50000 ![] bcast_S_S50000 (constant S_ .f32 0xFF800000#32)) mx)))

/-- Each row's sum of exponentials. -/
def sumExp (s : Arr F S50000x40 .f32) : Arr F S50000 .f32 :=
  Host.reduceAdd (Host.exp s) (constant S_ .f32 0x00000000#32) reducesTo_S50000x40_S50000_d1 h_S_

/-- A row minus the logarithm of a per-row value. -/
def subLog (s : Arr F S50000x40 .f32) (t : Arr F S50000 .f32) : Arr F S50000x40 .f32 :=
  subf s (broadcastInDim S50000x40 ![0, 1] bcast_S50000x1_S50000x40_0_1
    (Host.log (broadcastInDim S50000x1 ![0] bcast_S50000_S50000x1_0 t)))

/-- The row-wise log-softmax: the row shifted by its maximum, minus the logarithm of the sum of its exponentials. -/
def logSoftmax40 (x : Arr F S50000x40 .f32) : Arr F S50000x40 .f32 :=
  subLog (shiftBy x (rowMax x)) (sumExp (shiftBy x (rowMax x)))

/-- The first layer's product x · W1, as the host's `dot_general` with the plain dimension numbers. -/
def product128 (x : Arr F S50000x128 .f32) (w : Arr F S128x128 .f32) : Arr F S50000x128 .f32 :=
  Host.dotGeneral (DotDims.plain 50000 128 128) none x w

/-- The second layer's product h · W2. -/
def product40 (x : Arr F S50000x128 .f32) (w : Arr F S128x40 .f32) : Arr F S50000x40 .f32 :=
  Host.dotGeneral (DotDims.plain 50000 128 40) none x w

/-- The hidden features after the first layer. -/
def hidden (x : Arr F S50000x128 .f32) (w1 : Arr F S128x128 .f32) (b1 : Arr F S128 .f32) (ei : Arr F S2x800000 .i32) :
    Arr F S50000x128 .f32 :=
  relu128 (layer128 (product128 x w1) (srcOf ei) (dstOf ei) (normOf (dinvOf (dstOf ei)) (srcOf ei) (dstOf ei))
    (selfOf (dinvOf (dstOf ei))) b1)

/-- The whole network: two layers, `max(·, 0)` between them, the log-softmax at the end. -/
def network (x : Arr F S50000x128 .f32) (w1 : Arr F S128x128 .f32) (b1 : Arr F S128 .f32) (w2 : Arr F S128x40 .f32)
    (b2 : Arr F S40 .f32) (ei : Arr F S2x800000 .i32) : Arr F S50000x40 .f32 :=
  logSoftmax40 (layer40 (product40 (hidden x w1 b1 ei) w2) (srcOf ei) (dstOf ei)
    (normOf (dinvOf (dstOf ei)) (srcOf ei) (dstOf ei)) (selfOf (dinvOf (dstOf ei))) b2)

end Cert.Gcn

end
-- ==== Proof.Region0.lean ====
/-
  The first kernel's result array as one function of its operands.

  The grid has 25 points; point t loads rows 2000·t … 2000·t + 1999 of the left operand (all 128 lanes) and the whole
  128×128 weight matrix, and writes back rows 2000·t … 2000·t + 1999 of the result. A stored entry (p, j) of block t is
  the sum over c of left(2000·t + p, c) · weight(c, j), which is entry (2000·t + p, j) of the product of the two whole
  arrays; the 25 row blocks cover all 50000 rows, so after the region the result array IS that product — whatever
  contents `V` the region is entered with.
-/
import proofs.«136286_j12352325943364_1_alg».proof.Proof.Gen.KernelIdeal.Frame
import proofs.«136286_j12352325943364_1_alg».proof.Proof.BlockProduct
import proofs.«136286_j12352325943364_1_alg».proof.Proof.Network
import Idealize.ShloMosaic.Lib.Pipeline.Value

noncomputable section

open scoped BigOperators

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays at an entry: the sum over the contracted coordinate. -/
theorem product_apply (x : Arr Ideal S50000x128 .f32) (w : Arr Ideal S128x128 .f32) (i : S50000x128.Idx) :
    product128 x w i = ∑ k : Fin 128, x (ix2 (i 0) k) * w (ix2 k (i 1)) := by
  exact (congrArg (product128 x w) (eq_ix2 i)).trans
    (Cert.PlainDot.dotGeneral_apply (φ₁ := .f32) (φ₂ := .f32) (DotDims.plain 50000 128 128) rfl none .single x w (i 0) (i 1))

/-- A stored block at an index of the block. -/
theorem pay_apply (x0 : Vec Ideal S2000x128 .f32) (x1 : Vec Ideal S128x128 .f32) (y : S2000x128.Idx) :
    k0_pay1 (F := Ideal) x0 x1 y = ∑ k : Fin 128, x0 (ix2 (y 0) k) * x1 (ix2 k (y 1)) := by
  exact (congrArg (k0_pay1 (F := Ideal) x0 x1) (eq_ix2 y)).trans (Block.pay0_apply x0 x1 (y 0) (y 1))

/-- The printed index maps over the 25 points: the row-blocked windows sit at block row t, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q : Fin 25, ∃ t : Fin cfg0.N, win0_2.index t = ![q.val, 0] :=
  (by decide +kernel : ∀ q : Fin 25, ∃ t : Fin grid0.N, win0_2.index t = ![q.val, 0])

/-- The left operand's block at point t is rows 2000·t … of the array the region finds. -/
theorem left_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_arg0 : S50000x128.Idx → Elt Ideal .f32) k := by
  obtain ⟨e00, e01, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * (x 0).val = (k 0).val; rw [e00, hk0]; omega
  | ⟨1, _⟩ => show win0_0.index t (1 : Fin 2) * 128 + 1 * (x 1).val = (k 1).val; rw [e01, hk1]; omega

/-- The weights' block at every point is the whole array. -/
theorem right_apply (c : Dev nD) (t : Fin cfg0.N) (x : S128x128.Idx) :
    (iblk0 V c 1 t : Vec Ideal S128x128 .f32) x = (V c main_arg1 : S128x128.Idx → Elt Ideal .f32) x := by
  obtain ⟨-, -, e10, e11, -, -⟩ := idx_facts t
  unfold iblk0
  rw [View.read_apply]
  show V c main_arg1 _ = V c main_arg1 _
  refine congrArg _ ?_
  funext a
  apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- What point t writes back is block t of the product of the arrays the region finds. -/
theorem flushed_eq (c : Dev nD) (t : Fin cfg0.N) :
    (dat0 V c).flushed 2 t = ((cfg0.win 2).blk t).view.read (Elt Ideal) (product128 (V c main_arg0) (V c main_arg1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e20, e21⟩ := idx_facts t
  funext y
  show k0_pay1 (iblk0 V c 0 t) (iblk0 V c 1 t) y
    = product128 (V c main_arg0) (V c main_arg1) (((cfg0.win 2).blk t).view.emb y)
  have h0 : ((((cfg0.win 2).blk t).view.emb y) 0).val = 2000 * t.val + (y 0).val := by
    show win0_2.index t (0 : Fin 2) * 2000 + 1 * (y 0).val = _; rw [e20]; omega
  have h1 : ((((cfg0.win 2).blk t).view.emb y) 1).val = (y 1).val := by
    show win0_2.index t (1 : Fin 2) * 128 + 1 * (y 1).val = _; rw [e21]; omega
  refine (pay_apply _ _ y).trans ?_
  refine Eq.trans ?_ (product_apply _ _ _).symm
  refine Finset.sum_congr rfl fun k _ => ?_
  rw [left_apply V c t (ix2 (y 0) k) (ix2 ((((cfg0.win 2).blk t).view.emb y) 0) k) h0 rfl, right_apply V c t]
  refine congrArg _ (congrArg _ ?_)
  funext a
  apply Fin.ext
  match a with
  | ⟨0, _⟩ => rfl
  | ⟨1, _⟩ => exact h1.symm

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Every index of the result array lies in the block of the point that owns its row. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its result array is the product of the two operand arrays as the region found them. -/
theorem result (c : Dev nD) : (dat0 V c).arrAt 2 cfg0.N = product128 (V c main_arg0) (V c main_arg1) :=
  (dat0 V c).arrAt_eq_of_cover 2 (product128 (V c main_arg0) (V c main_arg1)) (fun t _ => flushed_eq V c t) cover

end Cert.Gcn.Region0

end
-- ==== Proof.Region1.lean ====
/-
  The second kernel's result array as one function of its operands.

  As for the first kernel, with a 128×40 weight matrix: point t of the 25 loads rows 2000·t … 2000·t + 1999 of the hidden
  features and the whole weight matrix and writes back the same rows of the 50000×40 result, each entry (p, j) the sum
  over c of hidden(2000·t + p, c) · weight(c, j). The row blocks cover the result, so after the region it IS the product
  of the two arrays the region was entered with.
-/
import proofs.«136286_j12352325943364_1_alg».proof.Proof.Gen.KernelIdeal.Frame
import proofs.«136286_j12352325943364_1_alg».proof.Proof.BlockProduct
import proofs.«136286_j12352325943364_1_alg».proof.Proof.Network
import Idealize.ShloMosaic.Lib.Pipeline.Value

noncomputable section

open scoped BigOperators

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays at an entry: the sum over the contracted coordinate. -/
theorem product_apply (x : Arr Ideal S50000x128 .f32) (w : Arr Ideal S128x40 .f32) (i : S50000x40.Idx) :
    product40 x w i = ∑ k : Fin 128, x (ix2 (i 0) k) * w (ix2 k (i 1)) := by
  exact (congrArg (product40 x w) (eq_ix2 i)).trans
    (Cert.PlainDot.dotGeneral_apply (φ₁ := .f32) (φ₂ := .f32) (DotDims.plain 50000 128 40) rfl none .single x w (i 0) (i 1))

/-- A stored block at an index of the block. -/
theorem pay_apply (x0 : Vec Ideal S2000x128 .f32) (x1 : Vec Ideal S128x40 .f32) (y : S2000x40.Idx) :
    k1_pay1 (F := Ideal) x0 x1 y = ∑ k : Fin 128, x0 (ix2 (y 0) k) * x1 (ix2 k (y 1)) := by
  exact (congrArg (k1_pay1 (F := Ideal) x0 x1) (eq_ix2 y)).trans (Block.pay1_apply x0 x1 (y 0) (y 1))

/-- The printed index maps over the 25 points: the row-blocked windows sit at block row t, the weights at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem idx_onto : ∀ q : Fin 25, ∃ t : Fin cfg1.N, win1_2.index t = ![q.val, 0] :=
  (by decide +kernel : ∀ q : Fin 25, ∃ t : Fin grid1.N, win1_2.index t = ![q.val, 0])

/-- The left operand's block at point t is rows 2000·t … of the array the region finds. -/
theorem left_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v48 : S50000x128.Idx → Elt Ideal .f32) k := by
  obtain ⟨e00, e01, -, -, -, -⟩ := idx_facts t
  unfold iblk1
  rw [View.read_apply]
  show V c main_v48 _ = V c main_v48 _
  refine congrArg _ ?_
  funext a
  apply Fin.ext
  match a with
  | ⟨0, _⟩ => show win1_0.index t (0 : Fin 2) * 2000 + 1 * (x 0).val = (k 0).val; rw [e00, hk0]; omega
  | ⟨1, _⟩ => show win1_0.index t (1 : Fin 2) * 128 + 1 * (x 1).val = (k 1).val; rw [e01, hk1]; omega

/-- The weights' block at every point is the whole array. -/
theorem right_apply (c : Dev nD) (t : Fin cfg1.N) (x : S128x40.Idx) :
    (iblk1 V c 1 t : Vec Ideal S128x40 .f32) x = (V c main_arg3 : S128x40.Idx → Elt Ideal .f32) x := by
  obtain ⟨-, -, e10, e11, -, -⟩ := idx_facts t
  unfold iblk1
  rw [View.read_apply]
  show V c main_arg3 _ = V c main_arg3 _
  refine congrArg _ ?_
  funext a
  apply Fin.ext
  match a with
  | ⟨0, _⟩ => show win1_1.index t (0 : Fin 2) * 128 + 1 * (x 0).val = (x 0).val; rw [e10]; omega
  | ⟨1, _⟩ => show win1_1.index t (1 : Fin 2) * 40 + 1 * (x 1).val = (x 1).val; rw [e11]; omega

/-- What point t writes back is block t of the product of the arrays the region finds. -/
theorem flushed_eq (c : Dev nD) (t : Fin cfg1.N) :
    (dat1 V c).flushed 2 t = ((cfg1.win 2).blk t).view.read (Elt Ideal) (product40 (V c main_v48) (V c main_arg3)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x40) hz]
  obtain ⟨-, -, -, -, e20, e21⟩ := idx_facts t
  funext y
  show k1_pay1 (iblk1 V c 0 t) (iblk1 V c 1 t) y
    = product40 (V c main_v48) (V c main_arg3) (((cfg1.win 2).blk t).view.emb y)
  have h0 : ((((cfg1.win 2).blk t).view.emb y) 0).val = 2000 * t.val + (y 0).val := by
    show win1_2.index t (0 : Fin 2) * 2000 + 1 * (y 0).val = _; rw [e20]; omega
  have h1 : ((((cfg1.win 2).blk t).view.emb y) 1).val = (y 1).val := by
    show win1_2.index t (1 : Fin 2) * 40 + 1 * (y 1).val = _; rw [e21]; omega
  refine (pay_apply _ _ y).trans ?_
  refine Eq.trans ?_ (product_apply _ _ _).symm
  refine Finset.sum_congr rfl fun k _ => ?_
  rw [left_apply V c t (ix2 (y 0) k) (ix2 ((((cfg1.win 2).blk t).view.emb y) 0) k) h0 rfl, right_apply V c t]
  refine congrArg _ (congrArg _ ?_)
  funext a
  apply Fin.ext
  match a with
  | ⟨0, _⟩ => rfl
  | ⟨1, _⟩ => exact h1.symm

/-- An index of the array is in point t's block iff each coordinate is in the block's range on its axis. -/
theorem mem_blk (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v49).slice (win1_2.rect t)).set ↔ _
  rw [View.set_slice_whole, Rect.mem_set_unit]
  exact Iff.rfl

/-- Every index of the result array lies in the block of the point that owns its row. -/
theorem cover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 40 ≤ (i 1).val ∧ (i 1).val < win1_2.index t (1 : Fin 2) * 40 + 40; omega

/-- After the region its result array is the product of the two operand arrays as the region found them. -/
theorem result (c : Dev nD) : (dat1 V c).arrAt 2 cfg1.N = product40 (V c main_v48) (V c main_arg3) :=
  (dat1 V c).arrAt_eq_of_cover 2 (product40 (V c main_v48) (V c main_arg3)) (fun t _ => flushed_eq V c t) cover

end Cert.Gcn.Region1

end
-- ==== Proof.KernelHost.lean ====
/-
  The kernel program's host stretches, read as stages of the network.

  Around its two kernels the program runs three stretches of host operations. From any buffer contents `V`:
  the first stretch leaves the edges' sources and targets, the edge weights dinv(src)·dinv(dst) and the self-loop
  weights dinv² ; the second (with the `max(·, 0)` call after it) turns the first product into the hidden features;
  the third (with the log-softmax call after it) turns the second product into the result. Each buffer a stretch
  does not write keeps its contents.
-/
import proofs.«136286_j12352325943364_1_alg».proof.Proof.Gen.KernelIdeal.Launch
import proofs.«136286_j12352325943364_1_alg».proof.Proof.Network
import Idealize.ShloMosaic.Lib.StableHlo.Run
import Idealize.ShloMosaic.Lib.Pipeline.Frame

noncomputable section

namespace Cert.Gcn.KernelHost

open Cert.KernelIdeal Cert.KernelIdeal.Gen Idealize.ShloMosaic Idealize.ShloMosaic.TcCoe Idealize.SL.Sem
open Idealize.ShloMosaic.StableHlo

variable {F : FTy → Type} [FloatOps F]
variable (V : Valuation τ sig (Elt F))

/-! ## The first stretch: the graph's weights -/

theorem pre_src : after hostOps0 V (Proc.devRef .tc main_v1) = srcOf (V (Proc.devRef .tc main_arg5)) := by
  after_results; rfl

theorem pre_dst : after hostOps0 V (Proc.devRef .tc main_v3) = dstOf (V (Proc.devRef .tc main_arg5)) := by
  after_results; rfl

set_option maxHeartbeats 4000000 in
theorem pre_norm : after hostOps0 V (Proc.devRef .tc main_v25)
    = normOf (dinvOf (dstOf (V (Proc.devRef .tc main_arg5)))) (srcOf (V (Proc.devRef .tc main_arg5))) (dstOf (V (Proc.devRef .tc main_arg5))) := by
  after_results; rfl

theorem pre_self : after hostOps0 V (Proc.devRef .tc main_v27) = selfOf (dinvOf (dstOf (V (Proc.devRef .tc main_arg5)))) := by
  after_results; rfl

theorem pre_arg0 : after hostOps0 V (Proc.devRef .tc main_arg0) = V (Proc.devRef .tc main_arg0) := by after_results
theorem pre_arg1 : after hostOps0 V (Proc.devRef .tc main_arg1) = V (Proc.devRef .tc main_arg1) := by after_results
theorem pre_arg2 : after hostOps0 V (Proc.devRef .tc main_arg2) = V (Proc.devRef .tc main_arg2) := by after_results
theorem pre_arg3 : after hostOps0 V (Proc.devRef .tc main_arg3) = V (Proc.devRef .tc main_arg3) := by after_results
theorem pre_arg4 : after hostOps0 V (Proc.devRef .tc main_arg4) = V (Proc.devRef .tc main_arg4) := by after_results

/-! ## The second stretch: the first layer after its product -/

set_option maxHeartbeats 4000000 in
theorem mid_layer : after hostOps1 V (Proc.devRef .tc main_v47)
    = layer128 (V (Proc.devRef .tc main_v28)) (V (Proc.devRef .tc main_v1)) (V (Proc.devRef .tc main_v3))
        (V (Proc.devRef .tc main_v25)) (V (Proc.devRef .tc main_v27)) (V (Proc.devRef .tc main_arg2)) := by
  after_results; rfl

theorem mid_relu : after hostOps1_1 V (Proc.devRef .tc main_v48) = relu128 (V (Proc.devRef .tc main_v47)) := by
  after_results
  simp only [cast_eq]
  all_goals rfl

theorem mid_hidden : after hostOps1_1 (after hostOps1 V) (Proc.devRef .tc main_v48)
    = relu128 (layer128 (V (Proc.devRef .tc main_v28)) (V (Proc.devRef .tc main_v1)) (V (Proc.devRef .tc main_v3))
        (V (Proc.devRef .tc main_v25)) (V (Proc.devRef .tc main_v27)) (V (Proc.devRef .tc main_arg2))) :=
  (mid_relu (after hostOps1 V)).trans (congrArg relu128 (mid_layer V))

theorem mid_v1 : after hostOps1_1 (after hostOps1 V) (Proc.devRef .tc main_v1) = V (Proc.devRef .tc main_v1) := by after_results
theorem mid_v3 : after hostOps1_1 (after hostOps1 V) (Proc.devRef .tc main_v3) = V (Proc.devRef .tc main_v3) := by after_results
theorem mid_v25 : after hostOps1_1 (after hostOps1 V) (Proc.devRef .tc main_v25) = V (Proc.devRef .tc main_v25) := by after_results
theorem mid_v27 : after hostOps1_1 (after hostOps1 V) (Proc.devRef .tc main_v27) = V (Proc.devRef .tc main_v27) := by after_results
theorem mid_arg3 : after hostOps1_1 (after hostOps1 V) (Proc.devRef .tc main_arg3) = V (Proc.devRef .tc main_arg3) := by after_results
theorem mid_arg4 : after hostOps1_1 (after hostOps1 V) (Proc.devRef .tc main_arg4) = V (Proc.devRef .tc main_arg4) := by after_results

/-! ## The third stretch: the second layer after its product, and the log-softmax -/

set_option maxHeartbeats 4000000 in
theorem tail_layer : after hostOps2 V (Proc.devRef .tc main_v68)
    = layer40 (V (Proc.devRef .tc main_v49)) (V (Proc.devRef .tc main_v1)) (V (Proc.devRef .tc main_v3))
        (V (Proc.devRef .tc main_v25)) (V (Proc.devRef .tc main_v27)) (V (Proc.devRef .tc main_arg4)) := by
  after_results; rfl

/-- The log-softmax call's fifteen operations in four groups: the row maximum; the shift; the sum of exponentials;
    the logarithm subtracted. -/
abbrev smA : List (HloOp τ sig (Elt F)) := (hostOps2_1 (F := F)).take 2
abbrev smB : List (HloOp τ sig (Elt F)) := ((hostOps2_1 (F := F)).drop 2).take 6
abbrev smC : List (HloOp τ sig (Elt F)) := (((hostOps2_1 (F := F)).drop 2).drop 6).take 3
abbrev smD : List (HloOp τ sig (Elt F)) := (((hostOps2_1 (F := F)).drop 2).drop 6).drop 3

theorem sm_split : (hostOps2_1 : List (HloOp τ sig (Elt F))) = smA ++ (smB ++ (smC ++ smD)) := by
  simp only [smA, smB, smC, smD, List.take_append_drop]

theorem smA_max : after smA V (Proc.devRef .tc main_call1_v0) = rowMax (V (Proc.devRef .tc main_v68)) := by
  simp only [smA, hostOps2_1, List.take_succ_cons, List.take_zero, List.drop_succ_cons, List.drop_zero]
  after_results
  simp only [cast_eq, rowMax]
theorem smA_v68 : after smA V (Proc.devRef .tc main_v68) = V (Proc.devRef .tc main_v68) := by
  simp only [smA, hostOps2_1, List.take_succ_cons, List.take_zero, List.drop_succ_cons, List.drop_zero]
  after_results
theorem smB_shift : after smB V (Proc.devRef .tc main_call1_v5) = shiftBy (V (Proc.devRef .tc main_v68)) (V (Proc.devRef .tc main_call1_v0)) := by
  simp only [smB, hostOps2_1, List.take_succ_cons, List.take_zero, List.drop_succ_cons, List.drop_zero]
  after_results
  simp only [cast_eq, shiftBy]
theorem smC_sum : after smC V (Proc.devRef .tc main_call1_v7) = sumExp (V (Proc.devRef .tc main_call1_v5)) := by
  simp only [smC, hostOps2_1, List.take_succ_cons, List.take_zero, List.drop_succ_cons, List.drop_zero]
  after_results
  simp only [cast_eq, sumExp]
theorem smC_v5 : after smC V (Proc.devRef .tc main_call1_v5) = V (Proc.devRef .tc main_call1_v5) := by
  simp only [smC, hostOps2_1, List.take_succ_cons, List.take_zero, List.drop_succ_cons, List.drop_zero]
  after_results
theorem smD_out : after smD V (Proc.devRef .tc main_v69) = subLog (V (Proc.devRef .tc main_call1_v5)) (V (Proc.devRef .tc main_call1_v7)) := by
  simp only [smD, hostOps2_1, List.take_succ_cons, List.take_zero, List.drop_succ_cons, List.drop_zero]
  after_results
  simp only [cast_eq, subLog]

theorem tail_softmax : after hostOps2_1 V (Proc.devRef .tc main_v69) = logSoftmax40 (V (Proc.devRef .tc main_v68)) := by
  have h : after (hostOps2_1 (F := F)) V = after (smA ++ (smB ++ (smC ++ smD))) V := congrArg (fun l => after l V) sm_split
  rw [h]
  simp only [StableHlo.after_append]
  rw [smD_out, smC_sum, smC_v5, smB_shift, smA_max, smA_v68]
  rfl

theorem tail_result : after hostOps2_1 (after hostOps2 V) (Proc.devRef .tc main_v69)
    = logSoftmax40 (layer40 (V (Proc.devRef .tc main_v49)) (V (Proc.devRef .tc main_v1)) (V (Proc.devRef .tc main_v3))
        (V (Proc.devRef .tc main_v25)) (V (Proc.devRef .tc main_v27)) (V (Proc.devRef .tc main_arg4))) :=
  (tail_softmax (after hostOps2 V)).trans (congrArg logSoftmax40 (tail_layer V))

end Cert.Gcn.KernelHost

end
-- ==== Proof.KernelValue.lean ====
/-
  The kernel program's result is the network of its arguments, at the ideal values.

  The last boundary's contents `W7` are a fold of the program's segments. Walking it back: the third host stretch is
  the second layer and the log-softmax of the second kernel's result, the edge data carried unchanged from the first
  stretch; the second kernel's result is the product of the hidden features with W2; the hidden features are the
  second stretch's first layer of the first kernel's result; and that is the product of x with W1.
-/
import proofs.«136286_j12352325943364_1_alg».proof.Proof.Gen.KernelIdeal.Frame
import proofs.«136286_j12352325943364_1_alg».proof.Proof.Region0
import proofs.«136286_j12352325943364_1_alg».proof.Proof.Region1
import proofs.«136286_j12352325943364_1_alg».proof.Proof.KernelHost

noncomputable section

namespace Cert.Gcn.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After the first stretch -/

theorem src1 : W1 m ρ c (Proc.devRef .tc main_v1) = srcOf (m ((c.tc : Thread nD τ).loc main_arg5)) :=
  KernelHost.pre_src (W0 m ρ c)
theorem dst1 : W1 m ρ c (Proc.devRef .tc main_v3) = dstOf (m ((c.tc : Thread nD τ).loc main_arg5)) :=
  KernelHost.pre_dst (W0 m ρ c)
theorem norm1 : W1 m ρ c (Proc.devRef .tc main_v25)
    = normOf (dinvOf (dstOf (m ((c.tc : Thread nD τ).loc main_arg5)))) (srcOf (m ((c.tc : Thread nD τ).loc main_arg5)))
        (dstOf (m ((c.tc : Thread nD τ).loc main_arg5))) :=
  KernelHost.pre_norm (W0 m ρ c)
theorem self1 : W1 m ρ c (Proc.devRef .tc main_v27) = selfOf (dinvOf (dstOf (m ((c.tc : Thread nD τ).loc main_arg5)))) :=
  KernelHost.pre_self (W0 m ρ c)

/-! ## The first kernel's result -/

theorem prod2 : W2 m ρ c (Proc.devRef .tc main_v28)
    = product128 (m ((c.tc : Thread nD τ).loc main_arg0)) (m ((c.tc : Thread nD τ).loc main_arg1)) := by
  refine (W2_arr m ρ c 2).trans ?_
  rw [Region0.result]
  show product128 (W1 m ρ c (Proc.devRef .tc main_arg0)) (W1 m ρ c (Proc.devRef .tc main_arg1)) = _
  rw [show W1 m ρ c (Proc.devRef .tc main_arg0) = W0 m ρ c (Proc.devRef .tc main_arg0) from KernelHost.pre_arg0 _,
    show W1 m ρ c (Proc.devRef .tc main_arg1) = W0 m ρ c (Proc.devRef .tc main_arg1) from KernelHost.pre_arg1 _]

/-! ## The hidden features -/

theorem hidden4 : W4 m ρ c (Proc.devRef .tc main_v48)
    = hidden (m ((c.tc : Thread nD τ).loc main_arg0)) (m ((c.tc : Thread nD τ).loc main_arg1))
        (m ((c.tc : Thread nD τ).loc main_arg2)) (m ((c.tc : Thread nD τ).loc main_arg5)) := by
  refine (KernelHost.mid_hidden (W2 m ρ c)).trans ?_
  rw [prod2, W2_of_ne m ρ c main_v1 (by decide), W2_of_ne m ρ c main_v3 (by decide), W2_of_ne m ρ c main_v25 (by decide),
    W2_of_ne m ρ c main_v27 (by decide), W2_of_ne m ρ c main_arg2 (by decide), src1, dst1, norm1, self1,
    show W1 m ρ c (Proc.devRef .tc main_arg2) = W0 m ρ c (Proc.devRef .tc main_arg2) from KernelHost.pre_arg2 _]
  rfl

/-- A buffer neither kernel writes and the middle stretch does not write keeps, up to the second kernel's exit, what the
    first stretch left in it. -/
theorem carried (b : Ref sig .tc) (h0 : ∀ w, Pipeline.arrRef spec0 w ≠ b) (h1 : ∀ w, Pipeline.arrRef spec1 w ≠ b)
    (hmid : after hostOps1_1 (after hostOps1 (W2 m ρ c)) (Proc.devRef .tc b) = W2 m ρ c (Proc.devRef .tc b)) :
    W5 m ρ c (Proc.devRef .tc b) = W1 m ρ c (Proc.devRef .tc b) :=
  (W5_of_ne m ρ c b h1).trans (hmid.trans (W2_of_ne m ρ c b h0))

/-! ## The second kernel's result -/

theorem prod5 : W5 m ρ c (Proc.devRef .tc main_v49)
    = product40 (hidden (m ((c.tc : Thread nD τ).loc main_arg0)) (m ((c.tc : Thread nD τ).loc main_arg1))
        (m ((c.tc : Thread nD τ).loc main_arg2)) (m ((c.tc : Thread nD τ).loc main_arg5))) (m ((c.tc : Thread nD τ).loc main_arg3)) := by
  refine (W5_arr m ρ c 2).trans ?_
  rw [Region1.result]
  show product40 (W4 m ρ c (Proc.devRef .tc main_v48)) (W4 m ρ c (Proc.devRef .tc main_arg3)) = _
  rw [hidden4, show W4 m ρ c (Proc.devRef .tc main_arg3) = W2 m ρ c (Proc.devRef .tc main_arg3) from KernelHost.mid_arg3 _,
    W2_of_ne m ρ c main_arg3 (by decide),
    show W1 m ρ c (Proc.devRef .tc main_arg3) = W0 m ρ c (Proc.devRef .tc main_arg3) from KernelHost.pre_arg3 _]

/-! ## The result -/

/-- The program's result buffer at the last boundary is the network of the arguments as launched. -/
theorem result : W7 m ρ c (Proc.devRef .tc main_v69)
    = network (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (KernelHost.tail_result (W5 m ρ c)).trans ?_
  rw [prod5, carried m ρ c main_v1 (by decide) (by decide) (KernelHost.mid_v1 _),
    carried m ρ c main_v3 (by decide) (by decide) (KernelHost.mid_v3 _),
    carried m ρ c main_v25 (by decide) (by decide) (KernelHost.mid_v25 _),
    carried m ρ c main_v27 (by decide) (by decide) (KernelHost.mid_v27 _),
    carried m ρ c main_arg4 (by decide) (by decide) (KernelHost.mid_arg4 _),
    src1, dst1, norm1, self1,
    show W1 m ρ c (Proc.devRef .tc main_arg4) = W0 m ρ c (Proc.devRef .tc main_arg4) from KernelHost.pre_arg4 _]
  rfl

end Cert.Gcn.KernelValue

end
-- ==== Proof.RefValue.lean ====
/-
  The reference program's result is the network of its arguments.

  The reference is one line of 130 host operations. Cut at six places it reads as the stages of the network:
  the edges' rows and the first product; the degrees' inverse square roots and the edge weights; the first layer;
  `max(·, 0)` and the second product; the same inverse square roots and edge weights, computed a second time from the
  same edge list; the second layer; the log-softmax. Each stretch is read from any buffer contents `V`, the buffers
  it does not write keeping theirs, and the stretches are then chained.
-/
import proofs.«136286_j12352325943364_1_alg».proof.Proof.RefOps
import proofs.«136286_j12352325943364_1_alg».proof.Proof.Network
import Idealize.ShloMosaic.Lib.StableHlo.Run
import Idealize.ShloMosaic.Lib.Pipeline.Frame

noncomputable section

namespace Cert.Gcn.RefValue

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (V : Valuation τ sig (Elt F))

/-! ## The seven stretches -/

/-- Operations 0–4: the rows of `edge_index` and x · W1. -/
abbrev opsA : List (HloOp τ sig (Elt F)) := (ops (F := F)).take 5
/-- Operations 5–33: the degrees' inverse square roots and the edge weights. -/
abbrev opsB : List (HloOp τ sig (Elt F)) := ((ops (F := F)).drop 5).take 29
/-- Operations 34–57: the first layer. -/
abbrev opsC : List (HloOp τ sig (Elt F)) := (((ops (F := F)).drop 5).drop 29).take 24
/-- Operations 58–61: `max(·, 0)` and the product with W2. -/
abbrev opsR : List (HloOp τ sig (Elt F)) := ((((ops (F := F)).drop 5).drop 29).drop 24).take 4
/-- Operations 62–90: the inverse square roots and edge weights again. -/
abbrev opsD : List (HloOp τ sig (Elt F)) := (((((ops (F := F)).drop 5).drop 29).drop 24).drop 4).take 29
/-- Operations 91–114: the second layer. -/
abbrev opsE : List (HloOp τ sig (Elt F)) := ((((((ops (F := F)).drop 5).drop 29).drop 24).drop 4).drop 29).take 24
/-- Operations 115–129: the log-softmax. -/
abbrev opsS : List (HloOp τ sig (Elt F)) := ((((((ops (F := F)).drop 5).drop 29).drop 24).drop 4).drop 29).drop 24

theorem ops_split : (ops : List (HloOp τ sig (Elt F))) = opsA ++ (opsB ++ (opsC ++ (opsR ++ (opsD ++ (opsE ++ opsS))))) := by
  simp only [opsA, opsB, opsC, opsR, opsD, opsE, opsS, List.take_append_drop]

/-- The whole line is the seven stretches in a row. -/
theorem after_split : after ops V
    = after opsS (after opsE (after opsD (after opsR (after opsC (after opsB (after opsA V)))))) := by
  have h : after (ops (F := F)) V = after (opsA ++ (opsB ++ (opsC ++ (opsR ++ (opsD ++ (opsE ++ opsS)))))) V :=
    congrArg (fun l => after l V) ops_split
  rw [h]
  simp only [StableHlo.after_append]

/-! ## Stretch A -/

theorem A_src : after opsA V (Proc.devRef .tc main_v1) = srcOf (V (Proc.devRef .tc main_arg5)) := by
  simp only [opsA, ops, List.take_succ_cons, List.take_zero, List.drop_succ_cons, List.drop_zero]
  after_results; rfl
theorem A_dst : after opsA V (Proc.devRef .tc main_v3) = dstOf (V (Proc.devRef .tc main_arg5)) := by
  simp only [opsA, ops, List.take_succ_cons, List.take_zero, List.drop_succ_cons, List.drop_zero]
  after_results; rfl
theorem A_prod : after opsA V (Proc.devRef .tc main_v4) = product128 (V (Proc.devRef .tc main_arg0)) (V (Proc.devRef .tc main_arg1)) := by
  simp only [opsA, ops, List.take_succ_cons, List.take_zero, List.drop_succ_cons, List.drop_zero]
  after_results; rfl
theorem A_arg2 : after opsA V (Proc.devRef .tc main_arg2) = V (Proc.devRef .tc main_arg2) := by
  simp only [opsA, ops, List.take_succ_cons, List.take_zero, List.drop_succ_cons, List.drop_zero]
  after_results
theorem A_arg3 : after opsA V (Proc.devRef .tc main_arg3) = V (Proc.devRef .tc main_arg3) := by
  simp only [opsA, ops, List.take_succ_cons, List.take_zero, List.drop_succ_cons, List.drop_zero]
  after_results
theorem A_arg4 : after opsA V (Proc.devRef .tc main_arg4) = V (Proc.devRef .tc main_arg4) := by
  simp only [opsA, ops, List.take_succ_cons, List.take_zero, List.drop_succ_cons, List.drop_zero]
  after_results

/-! ## Stretch B -/

set_option maxHeartbeats 4000000 in
theorem B_dinv : after opsB V (Proc.devRef .tc main_v11) = dinvOf (V (Proc.devRef .tc main_v3)) := by
  simp only [opsB, ops, List.take_succ_cons, List.take_zero, List.drop_succ_cons, List.drop_zero]
  after_results; rfl
set_option maxHeartbeats 4000000 in
theorem B_norm : after opsB V (Proc.devRef .tc main_v26)
    = normOf (dinvOf (V (Proc.devRef .tc main_v3))) (V (Proc.devRef .tc main_v1)) (V (Proc.devRef .tc main_v3)) := by
  simp only [opsB, ops, List.take_succ_cons, List.take_zero, List.drop_succ_cons, List.drop_zero]
  after_results
  simp only [normOf, dinvOf, wrapIdx]
  rfl
theorem B_v1 : after opsB V (Proc.devRef .tc main_v1) = V (Proc.devRef .tc main_v1) := by
  simp only [opsB, ops, List.take_succ_cons, List.take_zero, List.drop_succ_cons, List.drop_zero]
  after_results
theorem B_v3 : after opsB V (Proc.devRef .tc main_v3) = V (Proc.devRef .tc main_v3) := by
  simp only [opsB, ops, List.take_succ_cons, List.take_zero, List.drop_succ_cons, List.drop_zero]
  after_results
theorem B_v4 : after opsB V (Proc.devRef .tc main_v4) = V (Proc.devRef .tc main_v4) := by
  simp only [opsB, ops, List.take_succ_cons, List.take_zero, List.drop_succ_cons, List.drop_zero]
  after_results
theorem B_arg2 : after opsB V (Proc.devRef .tc main_arg2) = V (Proc.devRef .tc main_arg2) := by
  simp only [opsB, ops, List.take_succ_cons, List.take_zero, List.drop_succ_cons, List.drop_zero]
  after_results
theorem B_arg3 : after opsB V (Proc.devRef .tc main_arg3) = V (Proc.devRef .tc main_arg3) := by
  simp only [opsB, ops, List.take_succ_cons, List.take_zero, List.drop_succ_cons, List.drop_zero]
  after_results
theorem B_arg4 : after opsB V (Proc.devRef .tc main_arg4) = V (Proc.devRef .tc main_arg4) := by
  simp only [opsB, ops, List.take_succ_cons, List.take_zero, List.drop_succ_cons, List.drop_zero]
  after_results

/-! ## Stretch C -/

set_option maxHeartbeats 4000000 in
theorem C_layer : after opsC V (Proc.devRef .tc main_v47)
    = layer128 (V (Proc.devRef .tc main_v4)) (V (Proc.devRef .tc main_v1)) (V (Proc.devRef .tc main_v3)) (V (Proc.devRef .tc main_v26))
        (selfOf (V (Proc.devRef .tc main_v11))) (V (Proc.devRef .tc main_arg2)) := by
  simp only [opsC, ops, List.take_succ_cons, List.take_zero, List.drop_succ_cons, List.drop_zero]
  after_results
  simp only [layer128, selfOf, wrapIdx]
  rfl
theorem C_v1 : after opsC V (Proc.devRef .tc main_v1) = V (Proc.devRef .tc main_v1) := by
  simp only [opsC, ops, List.take_succ_cons, List.take_zero, List.drop_succ_cons, List.drop_zero]
  after_results
theorem C_v3 : after opsC V (Proc.devRef .tc main_v3) = V (Proc.devRef .tc main_v3) := by
  simp only [opsC, ops, List.take_succ_cons, List.take_zero, List.drop_succ_cons, List.drop_zero]
  after_results
theorem C_arg3 : after opsC V (Proc.devRef .tc main_arg3) = V (Proc.devRef .tc main_arg3) := by
  simp only [opsC, ops, List.take_succ_cons, List.take_zero, List.drop_succ_cons, List.drop_zero]
  after_results
theorem C_arg4 : after opsC V (Proc.devRef .tc main_arg4) = V (Proc.devRef .tc main_arg4) := by
  simp only [opsC, ops, List.take_succ_cons, List.take_zero, List.drop_succ_cons, List.drop_zero]
  after_results

/-! ## Stretch R -/

theorem R_prod : after opsR V (Proc.devRef .tc main_v49) = product40 (relu128 (V (Proc.devRef .tc main_v47))) (V (Proc.devRef .tc main_arg3)) := by
  simp only [opsR, ops, List.take_succ_cons, List.take_zero, List.drop_succ_cons, List.drop_zero]
  after_results
  simp only [cast_eq]
  all_goals rfl
theorem R_v1 : after opsR V (Proc.devRef .tc main_v1) = V (Proc.devRef .tc main_v1) := by
  simp only [opsR, ops, List.take_succ_cons, List.take_zero, List.drop_succ_cons, List.drop_zero]
  after_results
theorem R_v3 : after opsR V (Proc.devRef .tc main_v3) = V (Proc.devRef .tc main_v3) := by
  simp only [opsR, ops, List.take_succ_cons, List.take_zero, List.drop_succ_cons, List.drop_zero]
  after_results
theorem R_arg4 : after opsR V (Proc.devRef .tc main_arg4) = V (Proc.devRef .tc main_arg4) := by
  simp only [opsR, ops, List.take_succ_cons, List.take_zero, List.drop_succ_cons, List.drop_zero]
  after_results

/-! ## Stretch D -/

set_option maxHeartbeats 4000000 in
theorem D_dinv : after opsD V (Proc.devRef .tc main_v56) = dinvOf (V (Proc.devRef .tc main_v3)) := by
  simp only [opsD, ops, List.take_succ_cons, List.take_zero, List.drop_succ_cons, List.drop_zero]
  after_results; rfl
set_option maxHeartbeats 4000000 in
theorem D_norm : after opsD V (Proc.devRef .tc main_v71)
    = normOf (dinvOf (V (Proc.devRef .tc main_v3))) (V (Proc.devRef .tc main_v1)) (V (Proc.devRef .tc main_v3)) := by
  simp only [opsD, ops, List.take_succ_cons, List.take_zero, List.drop_succ_cons, List.drop_zero]
  after_results
  simp only [normOf, dinvOf, wrapIdx]
  rfl
theorem D_v1 : after opsD V (Proc.devRef .tc main_v1) = V (Proc.devRef .tc main_v1) := by
  simp only [opsD, ops, List.take_succ_cons, List.take_zero, List.drop_succ_cons, List.drop_zero]
  after_results
theorem D_v3 : after opsD V (Proc.devRef .tc main_v3) = V (Proc.devRef .tc main_v3) := by
  simp only [opsD, ops, List.take_succ_cons, List.take_zero, List.drop_succ_cons, List.drop_zero]
  after_results
theorem D_v49 : after opsD V (Proc.devRef .tc main_v49) = V (Proc.devRef .tc main_v49) := by
  simp only [opsD, ops, List.take_succ_cons, List.take_zero, List.drop_succ_cons, List.drop_zero]
  after_results
theorem D_arg4 : after opsD V (Proc.devRef .tc main_arg4) = V (Proc.devRef .tc main_arg4) := by
  simp only [opsD, ops, List.take_succ_cons, List.take_zero, List.drop_succ_cons, List.drop_zero]
  after_results

/-! ## Stretch E -/

set_option maxHeartbeats 4000000 in
theorem E_layer : after opsE V (Proc.devRef .tc main_v92)
    = layer40 (V (Proc.devRef .tc main_v49)) (V (Proc.devRef .tc main_v1)) (V (Proc.devRef .tc main_v3)) (V (Proc.devRef .tc main_v71))
        (selfOf (V (Proc.devRef .tc main_v56))) (V (Proc.devRef .tc main_arg4)) := by
  simp only [opsE, ops, List.take_succ_cons, List.take_zero, List.drop_succ_cons, List.drop_zero]
  after_results
  simp only [layer40, selfOf, wrapIdx]
  rfl

/-! ## Stretch S -/

/-- The log-softmax's fifteen operations in four groups: the row maximum; the shift; the sum of exponentials; the
    logarithm subtracted. -/
abbrev sA : List (HloOp τ sig (Elt F)) := (opsS (F := F)).take 2
abbrev sB : List (HloOp τ sig (Elt F)) := ((opsS (F := F)).drop 2).take 6
abbrev sC : List (HloOp τ sig (Elt F)) := (((opsS (F := F)).drop 2).drop 6).take 3
abbrev sD : List (HloOp τ sig (Elt F)) := (((opsS (F := F)).drop 2).drop 6).drop 3

theorem s_split : (opsS : List (HloOp τ sig (Elt F))) = sA ++ (sB ++ (sC ++ sD)) := by
  simp only [sA, sB, sC, sD, List.take_append_drop]

theorem sA_max : after sA V (Proc.devRef .tc main_call1_v0) = rowMax (V (Proc.devRef .tc main_v92)) := by
  simp only [sA, opsS, ops, List.take_succ_cons, List.take_zero, List.drop_succ_cons, List.drop_zero]
  after_results
  simp only [cast_eq, rowMax]
  all_goals rfl
theorem sA_v92 : after sA V (Proc.devRef .tc main_v92) = V (Proc.devRef .tc main_v92) := by
  simp only [sA, opsS, ops, List.take_succ_cons, List.take_zero, List.drop_succ_cons, List.drop_zero]
  after_results
theorem sB_shift : after sB V (Proc.devRef .tc main_call1_v5) = shiftBy (V (Proc.devRef .tc main_v92)) (V (Proc.devRef .tc main_call1_v0)) := by
  simp only [sB, opsS, ops, List.take_succ_cons, List.take_zero, List.drop_succ_cons, List.drop_zero]
  after_results
  simp only [cast_eq, shiftBy]
  all_goals rfl
theorem sC_sum : after sC V (Proc.devRef .tc main_call1_v7) = sumExp (V (Proc.devRef .tc main_call1_v5)) := by
  simp only [sC, opsS, ops, List.take_succ_cons, List.take_zero, List.drop_succ_cons, List.drop_zero]
  after_results
  simp only [cast_eq, sumExp]
  all_goals rfl
theorem sC_v5 : after sC V (Proc.devRef .tc main_call1_v5) = V (Proc.devRef .tc main_call1_v5) := by
  simp only [sC, opsS, ops, List.take_succ_cons, List.take_zero, List.drop_succ_cons, List.drop_zero]
  after_results
theorem sD_out : after sD V (Proc.devRef .tc main_v93) = subLog (V (Proc.devRef .tc main_call1_v5)) (V (Proc.devRef .tc main_call1_v7)) := by
  simp only [sD, opsS, ops, List.take_succ_cons, List.take_zero, List.drop_succ_cons, List.drop_zero]
  after_results
  simp only [cast_eq, subLog]
  all_goals rfl

theorem S_softmax : after opsS V (Proc.devRef .tc main_v93) = logSoftmax40 (V (Proc.devRef .tc main_v92)) := by
  have h : after (opsS (F := F)) V = after (sA ++ (sB ++ (sC ++ sD))) V := congrArg (fun l => after l V) s_split
  rw [h]
  simp only [StableHlo.after_append]
  rw [sD_out, sC_sum, sC_v5, sB_shift, sA_max, sA_v92]
  rfl

/-! ## The line, read -/

/-- From any contents `V` the line leaves the network of the arguments in its result buffer. -/
theorem result : after ops V (Proc.devRef .tc main_v93)
    = network (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [after_split, S_softmax, E_layer, D_v49, D_v1, D_v3, D_norm, D_dinv, D_arg4,
    R_prod, R_v1, R_v3, R_arg4, C_layer, C_v1, C_v3, C_arg3, C_arg4,
    B_v4, B_v1, B_v3, B_norm, B_dinv, B_arg2, B_arg3, B_arg4,
    A_prod, A_src, A_dst, A_arg2, A_arg3, A_arg4]
  rfl

end Cert.Gcn.RefValue

end
-- ==== Proof.RefRun.lean ====
/-
  The reference program's run, read.

  The reference has no kernel: its @main is a line of host operations, and the library's theorem for such a line says
  that every weakly fair execution terminates, nothing faulting, with each buffer at the fold of the operations over
  the launch memory. The fold at the result buffer is the network of the arguments (Proof/RefValue.lean); at an
  argument's buffer it is the launch contents, since no operation writes an argument.
-/
import proofs.«136286_j12352325943364_1_alg».proof.Proof.RefValue

noncomputable section

namespace Cert.Gcn.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 52000000 in
/-- Every weakly fair execution of the reference terminates with the network of the arguments in its result buffer and
    the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = Cert.Gcn.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v93).trans (Cert.Gcn.RefValue.result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.RefRun

end
-- ==== Proof.lean ====
/-
  Two graph-convolution layers with a log-softmax, as a Pallas program and as a jnp reference: the certificate.

  Both programs compute, from node features x, weights W1, W2, biases b1, b2 and an edge list, the function
  `Cert.Gcn.network` (Proof/Network.lean): with dinv = (1 + in-degree)^(-1/2),
      layer(h)(v, ·) = Σ_{e : dst e = v} h(src e, ·) · dinv(src e) · dinv(dst e) + h(v, ·) · dinv(v)² + b,
      result = log_softmax(layer₂(max(layer₁(x · W1), 0) · W2)).
  The kernel program computes the two products in row-blocked kernels on the matrix unit (operands rounded to bf16,
  which is the identity at the ideal values) and everything else on the host; the reference computes the products by
  `dot_general` and the edge weights once per layer. At the ideal values a blocked product into a zero accumulator is
  the whole product entry by entry — the same finite sum over the contracted coordinate, in the extended reals, with
  no finiteness asked — and the remaining host operations are the same in both programs; so the two results are one
  function of the arguments (Proof/KernelValue.lean, Proof/RefValue.lean), and the precondition is not used.
  The ideal pass rewrote nothing, so `preserves` asks nothing. The kernel programs' frames are the generated ones; the
  reference's frame is its run with the result forgotten.
-/
import proofs.«136286_j12352325943364_1_alg».proof.Defs
import proofs.«136286_j12352325943364_1_alg».proof.Proof.Gen.Kernel
import proofs.«136286_j12352325943364_1_alg».proof.Proof.Gen.Kernel.Frame
import proofs.«136286_j12352325943364_1_alg».proof.Proof.Gen.KernelIdeal
import proofs.«136286_j12352325943364_1_alg».proof.Proof.Gen.KernelIdeal.Frame
import proofs.«136286_j12352325943364_1_alg».proof.Proof.Gen.ReferenceIdeal
import proofs.«136286_j12352325943364_1_alg».proof.Proof.Gen.Pre_finite_inputs
import proofs.«136286_j12352325943364_1_alg».proof.Proof.KernelRun
import proofs.«136286_j12352325943364_1_alg».proof.Proof.KernelValue
import proofs.«136286_j12352325943364_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.Gcn.RefRun.run (F := Ideal) m ρ)

/-- Both programs end with the network of the (agreeing) arguments in their result buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    (θ_run Cert.KernelIdeal.defs _ _).mono (fun _ h c => ⟨(h c).1.trans (Cert.Gcn.KernelValue.result m ρ c), (h c).2⟩)
      (Cert.Gcn.KernelRun.run (F := Ideal) m ρ), ?_⟩
  refine (θ_run Cert.ReferenceIdeal.defs _ _).mono (fun _ h c => ⟨(h c).1.trans ?_, (h c).2⟩)
    (Cert.Gcn.RefRun.run (F := Ideal) m' ρ')
  rw [(hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
